-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x7x7 : Shape := ⟨4, ![128, 2048, 7, 7]⟩
abbrev S_ : Shape := ⟨0, ![]⟩

class Facts : Prop where
  bcast_S_S128x2048x7x7 : S_.BroadcastsInDim S128x2048x7x7 (![] : Fin 0 → Fin S128x2048x7x7.rank)
  reducesTo_S128x2048x7x7_S_d0_1_2_3 : S128x2048x7x7.ReducesTo [0, 1, 2, 3] S_
  h_S_ : 0 < S_.numel

variable [Facts]

def fn {F : FTy → Type} [FloatOps F] (main_arg0 : FVec F S128x2048x7x7 .f32) : IVec S_ 1 :=
  let main_v0 : FVec F S128x2048x7x7 .f32 := Host.absf main_arg0
  let main_cst : FVec F S_ .f32 := constant S_ .f32 0x7F800000#32
  let main_v1 : FVec F S128x2048x7x7 .f32 := broadcastInDim S128x2048x7x7 ![] bcast_S_S128x2048x7x7 main_cst
  let main_v2 : IVec S128x2048x7x7 1 := cmpf .olt main_v0 main_v1
  let main_c : IVec S_ 1 := constantI S_ 1 1#1
  let main_v3 : IVec S_ 1 := (fun x v => Host.reduce IntOp.andi x v reducesTo_S128x2048x7x7_S_d0_1_2_3 h_S_) main_v2 main_c
  main_v3
-- ==== Kernel.lean ====
abbrev S128x2048x7x7 : Shape := ⟨4, ![128, 2048, 7, 7]⟩
abbrev S7x7x128x2048 : Shape := ⟨4, ![7, 7, 128, 2048]⟩
abbrev S49x128x2048 : Shape := ⟨3, ![49, 128, 2048]⟩
abbrev S128x2048 : Shape := ⟨2, ![128, 2048]⟩
abbrev S49x16x2048 : Shape := ⟨3, ![49, 16, 2048]⟩
abbrev S16x2048 : Shape := ⟨2, ![16, 2048]⟩
abbrev S128x2048x1x1 : Shape := ⟨4, ![128, 2048, 1, 1]⟩

abbrev nBuf : Space → Nat
  | .hbm => 5
  | .vmem => 4
  | .smem => 0
  | _ => 0

abbrev bufTy : (tb : Table) → Fin (tcTables nBuf tb) → BufTy
  | .hbm, ⟨0, _⟩ => ⟨S128x2048x7x7, .f32⟩
  | .hbm, ⟨1, _⟩ => ⟨S7x7x128x2048, .f32⟩
  | .hbm, ⟨2, _⟩ => ⟨S49x128x2048, .f32⟩
  | .hbm, ⟨3, _⟩ => ⟨S128x2048, .f32⟩
  | .hbm, ⟨4, _⟩ => ⟨S128x2048x1x1, .f32⟩
  | .local _ .vmem, ⟨0, _⟩ => ⟨S49x16x2048, .f32⟩
  | .local _ .vmem, ⟨1, _⟩ => ⟨S49x16x2048, .f32⟩
  | .local _ .vmem, ⟨2, _⟩ => ⟨S16x2048, .f32⟩
  | .local _ .vmem, ⟨3, _⟩ => ⟨S16x2048, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S128x2048x7x7_S7x7x128x2048_2_3_0_1 : S128x2048x7x7.Transposes [2, 3, 0, 1] S7x7x128x2048
  shapeCasts_S7x7x128x2048_S49x128x2048 : S7x7x128x2048.ShapeCasts S49x128x2048
  inb_S49x16x2048_S49x16x2048_0_0_0 : ∀ a, (![0, 0, 0] : Fin 3 → Nat) a + S49x16x2048.size a ≤ S49x16x2048.size a
  h_S49x16x2048 : 0 < S49x16x2048.numel
  shapeCasts_S49x16x2048_S49x16x2048 : S49x16x2048.ShapeCasts S49x16x2048
  reduces_S49x16x2048_S16x2048 : S49x16x2048.Reduces [0] S16x2048
  inb_S16x2048_S16x2048_0_0 : ∀ a, (![0, 0] : Fin 2 → Nat) a + S16x2048.size a ≤ S16x2048.size a
  h_S16x2048 : 0 < S16x2048.numel
  shapeCasts_S128x2048_S128x2048x1x1 : S128x2048.ShapeCasts S128x2048x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x16x2048.size a ≤ S49x128x2048.size a
  hwx0_0 : ∀ i : grid0.Coords, EltTy.bits .f32 = 32 ∨ (Rect.block (s := S49x128x2048) S49x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S128x2048.size a
  hwx0_1 : ∀ i : grid0.Coords, EltTy.bits .f32 = 32 ∨ (Rect.block (s := S128x2048) S16x2048.size (cc0_transform_1 i) (hinb0_1 i)).WholeWords (EltTy.packing .f32)

variable [Facts₀]

abbrev win0_0 : Pipeline.Window sig grid0 :=
  Pipeline.Window.ofSpec (Memref.whole main_v1) S49x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x2048x7x7 : Shape := ⟨4, ![128, 2048, 7, 7]⟩
abbrev S262144x49 : Shape := ⟨2, ![262144, 49]⟩
abbrev S262144x1 : Shape := ⟨2, ![262144, 1]⟩
abbrev S16384x49 : Shape := ⟨2, ![16384, 49]⟩
abbrev S16384x1 : Shape := ⟨2, ![16384, 1]⟩
abbrev S16384 : Shape := ⟨1, ![16384]⟩
abbrev S262144 : Shape := ⟨1, ![262144]⟩
abbrev S128x2048x1x1 : Shape := ⟨4, ![128, 2048, 1, 1]⟩

abbrev nBuf : Space → Nat
  | .hbm => 5
  | .vmem => 4
  | .smem => 0
  | _ => 0

abbrev bufTy : (tb : Table) → Fin (tcTables nBuf tb) → BufTy
  | .hbm, ⟨0, _⟩ => ⟨S128x2048x7x7, .f32⟩
  | .hbm, ⟨1, _⟩ => ⟨S262144x49, .f32⟩
  | .hbm, ⟨2, _⟩ => ⟨S262144x1, .f32⟩
  | .hbm, ⟨3, _⟩ => ⟨S262144, .f32⟩
  | .hbm, ⟨4, _⟩ => ⟨S128x2048x1x1, .f32⟩
  | .local _ .vmem, ⟨0, _⟩ => ⟨S16384x49, .f32⟩
  | .local _ .vmem, ⟨1, _⟩ => ⟨S16384x49, .f32⟩
  | .local _ .vmem, ⟨2, _⟩ => ⟨S16384x1, .f32⟩
  | .local _ .vmem, ⟨3, _⟩ => ⟨S16384x1, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x2048x7x7_S262144x49 : S128x2048x7x7.ShapeCasts S262144x49
  inb_S16384x49_S16384x49_0_0 : ∀ a, (![0, 0] : Fin 2 → Nat) a + S16384x49.size a ≤ S16384x49.size a
  h_S16384x49 : 0 < S16384x49.numel
  shapeCasts_S16384x49_S16384x49 : S16384x49.ShapeCasts S16384x49
  reduces_S16384x49_S16384 : S16384x49.Reduces [1] S16384
  shapeCasts_S16384_S16384x1 : S16384.ShapeCasts S16384x1
  inb_S16384x1_S16384x1_0_0 : ∀ a, (![0, 0] : Fin 2 → Nat) a + S16384x1.size a ≤ S16384x1.size a
  h_S16384x1 : 0 < S16384x1.numel
  shapeCasts_S262144x1_S262144 : S262144x1.ShapeCasts S262144
  shapeCasts_S262144_S128x2048x1x1 : S262144.ShapeCasts S128x2048x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x49.size a ≤ S262144x49.size a
  hwx0_0 : ∀ i : grid0.Coords, EltTy.bits .f32 = 32 ∨ (Rect.block (s := S262144x49) S16384x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S262144x1.size a
  hwx0_1 : ∀ i : grid0.Coords, EltTy.bits .f32 = 32 ∨ (Rect.block (s := S262144x1) S16384x1.size (cc0_transform_1 i) (hinb0_1 i)).WholeWords (EltTy.packing .f32)

variable [Facts₀]

abbrev win0_0 : Pipeline.Window sig grid0 :=
  Pipeline.Window.ofSpec (Memref.whole main_v0) S16384x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.PoolSpec.lean ====
/-
  Global average pooling of a [128, 2048, 7, 7] array of extended reals over its two trailing axes, as ONE function
  of the array: at (n, c) the 49 entries x[n, c, h, w] are added and the sum is multiplied by a fixed scalar s.
  The 49 positions are indexed by k = 7·h + w, so position k is row k / 7 and column k % 7 of the 7×7 window.
  Both programs compute this function; they differ only in how the array is laid out on the way (which axes are
  flattened together, how the work is cut into blocks), and every such re-layout reads ONE entry of its operand at each
  index. This module states the function and, for each re-layout either program applies, which entry that is.
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Pool

/-- Row of the 7×7 window holding flattened position k. -/
abbrev rowOf (k : Fin 49) : Fin 7 := ⟨k.val / 7, by have := k.isLt; omega⟩
/-- Column of the 7×7 window holding flattened position k. -/
abbrev colOf (k : Fin 49) : Fin 7 := ⟨k.val % 7, by have := k.isLt; omega⟩

/-- The scalar both programs multiply by: the single-precision word 0x3CA72F05 read as an extended real. Both programs
    carry the same word, so its value is never needed. -/
abbrev scale : EReal := Scalar.ofBits (F := Ideal) .f32 0x3CA72F05#32

/-- The pooled value at (n, c): the window's 49 entries added, times the scalar. -/
def poolAt (s : EReal) (x : (⟨4, ![128, 2048, 7, 7]⟩ : Shape).Idx → EReal) (n : Fin 128) (c : Fin 2048) : EReal :=
  (∑ k : Fin 49, x (ix4 n c (rowOf k) (colOf k))) * s

/-- The result array [128, 2048, 1, 1]: the pooled value at the two leading coordinates. -/
def pooled (s : EReal) (x : (⟨4, ![128, 2048, 7, 7]⟩ : Shape).Idx → EReal) : (⟨4, ![128, 2048, 1, 1]⟩ : Shape).Idx → EReal :=
  fun i => poolAt s x (i 0) (i 1)

/-- The same values as a matrix [128, 2048]. -/
def pooledMat (s : EReal) (x : (⟨4, ![128, 2048, 7, 7]⟩ : Shape).Idx → EReal) : (⟨2, ![128, 2048]⟩ : Shape).Idx → EReal :=
  fun j => poolAt s x (j 0) (j 1)

/-- The same values as one column [262144, 1], row r = 2048·n + c holding the value at (n, c). -/
def pooledCol (s : EReal) (x : (⟨4, ![128, 2048, 7, 7]⟩ : Shape).Idx → EReal) : (⟨2, ![262144, 1]⟩ : Shape).Idx → EReal :=
  fun j => poolAt s x ⟨(j 0).val / 2048, by have h0 : (j 0).val < 262144 := (j 0).isLt; omega⟩ ⟨(j 0).val % 2048, Nat.mod_lt _ (by norm_num)⟩

/-! ## The re-layouts of the first program: spatial axes to the front, then flattened -/

/-- Moving the two spatial axes to the front: entry (h, w, n, c) of the result is entry (n, c, h, w) of the operand. -/
theorem spatialFirst_apply (x : (⟨4, ![128, 2048, 7, 7]⟩ : Shape).Idx → EReal)
    (h : (⟨4, ![128, 2048, 7, 7]⟩ : Shape).Transposes [2, 3, 0, 1] ⟨4, ![7, 7, 128, 2048]⟩)
    (a : Fin 7) (b : Fin 7) (n : Fin 128) (c : Fin 2048) :
    transpose ⟨4, ![7, 7, 128, 2048]⟩ [2, 3, 0, 1] x h (ix4 a b n c) = x (ix4 n c a b) :=
  transpose_apply _ x h _ _ fun d => by
    match d with
    | ⟨0, _⟩ => rfl
    | ⟨1, _⟩ => rfl
    | ⟨2, _⟩ => rfl
    | ⟨3, _⟩ => rfl

/-- Flattening the two spatial axes into one of 49: position k is (k / 7, k % 7). -/
theorem flattenSpatial_apply (y : (⟨4, ![7, 7, 128, 2048]⟩ : Shape).Idx → EReal)
    (h : (⟨4, ![7, 7, 128, 2048]⟩ : Shape).ShapeCasts ⟨3, ![49, 128, 2048]⟩)
    (k : Fin 49) (n : Fin 128) (c : Fin 2048) :
    shapeCast ⟨3, ![49, 128, 2048]⟩ y h (ix3 k n c) = y (ix4 (rowOf k) (colOf k) n c) :=
  shapeCast_apply y h _ _ (by
    rw [Shape.rowMajor_val_four, Shape.rowMajor_val_three]
    show ((k.val / 7 * 7 + k.val % 7) * 128 + n.val) * 2048 + c.val = (k.val * 128 + n.val) * 2048 + c.val
    have := Nat.div_add_mod k.val 7
    rw [show k.val / 7 * 7 + k.val % 7 = k.val by omega])

/-- A matrix [128, 2048] given two trailing unit axes: entry (n, c, 0, 0) is entry (n, c). -/
theorem addUnits_apply (z : (⟨2, ![128, 2048]⟩ : Shape).Idx → EReal)
    (h : (⟨2, ![128, 2048]⟩ : Shape).ShapeCasts ⟨4, ![128, 2048, 1, 1]⟩)
    (i : (⟨4, ![128, 2048, 1, 1]⟩ : Shape).Idx) :
    shapeCast ⟨4, ![128, 2048, 1, 1]⟩ z h i = z (ix2 (i 0) (i 1)) :=
  shapeCast_apply z h _ _ (by
    rw [Shape.rowMajor_val_four, Shape.rowMajor_val_two]
    have h2 : (i 2).val < 1 := (i 2).isLt
    have h3 : (i 3).val < 1 := (i 3).isLt
    show (i 0).val * 2048 + (i 1).val = (((i 0).val * 2048 + (i 1).val) * 1 + (i 2).val) * 1 + (i 3).val
    omega)

/-! ## The re-layouts of the second program: everything but the window flattened into rows -/

/-- Flattening to rows of 49: entry (r, k) is entry (r / 2048, r % 2048, k / 7, k % 7). -/
theorem flattenRows_apply (x : (⟨4, ![128, 2048, 7, 7]⟩ : Shape).Idx → EReal)
    (h : (⟨4, ![128, 2048, 7, 7]⟩ : Shape).ShapeCasts ⟨2, ![262144, 49]⟩)
    (r : Fin 262144) (k : Fin 49) :
    shapeCast ⟨2, ![262144, 49]⟩ x h (ix2 r k)
      = x (ix4 (⟨r.val / 2048, by have := r.isLt; omega⟩ : Fin 128) (⟨r.val % 2048, Nat.mod_lt _ (by norm_num)⟩ : Fin 2048) (rowOf k) (colOf k)) :=
  shapeCast_apply x h _ _ (by
    rw [Shape.rowMajor_val_four, Shape.rowMajor_val_two]
    show ((r.val / 2048 * 2048 + r.val % 2048) * 7 + k.val / 7) * 7 + k.val % 7 = r.val * 49 + k.val
    have := Nat.div_add_mod k.val 7
    have := Nat.div_add_mod r.val 2048
    rw [show r.val / 2048 * 2048 + r.val % 2048 = r.val by omega]
    omega)

/-- A vector [16384] made a column [16384, 1]: entry (p, 0) is entry p. -/
theorem column_apply (v : (⟨1, ![16384]⟩ : Shape).Idx → EReal)
    (h : (⟨1, ![16384]⟩ : Shape).ShapeCasts ⟨2, ![16384, 1]⟩) (j : (⟨2, ![16384, 1]⟩ : Shape).Idx) :
    shapeCast ⟨2, ![16384, 1]⟩ v h j = v (ix1 (j 0)) :=
  shapeCast_apply v h _ _ (by
    rw [Shape.rowMajor_val_one, Shape.rowMajor_val_two]
    have h1 : (j 1).val < 1 := (j 1).isLt
    show (j 0).val = (j 0).val * 1 + (j 1).val
    omega)

/-- A column [262144, 1] made a vector [262144]: entry r is entry (r, 0). -/
theorem dropColumn_apply (y : (⟨2, ![262144, 1]⟩ : Shape).Idx → EReal)
    (h : (⟨2, ![262144, 1]⟩ : Shape).ShapeCasts ⟨1, ![262144]⟩) (r : Fin 262144) :
    shapeCast ⟨1, ![262144]⟩ y h (ix1 r) = y (ix2 r (0 : Fin 1)) :=
  shapeCast_apply y h _ _ (by
    rw [Shape.rowMajor_val_one, Shape.rowMajor_val_two]
    show r.val * 1 + 0 = r.val
    omega)

/-- A vector [262144] folded to [128, 2048, 1, 1]: entry (n, c, 0, 0) is entry 2048·n + c. -/
theorem foldRows_apply (z : (⟨1, ![262144]⟩ : Shape).Idx → EReal)
    (h : (⟨1, ![262144]⟩ : Shape).ShapeCasts ⟨4, ![128, 2048, 1, 1]⟩)
    (i : (⟨4, ![128, 2048, 1, 1]⟩ : Shape).Idx) :
    shapeCast ⟨4, ![128, 2048, 1, 1]⟩ z h i
      = z (ix1 (⟨(i 0).val * 2048 + (i 1).val, by have h0 : (i 0).val < 128 := (i 0).isLt; have h1 : (i 1).val < 2048 := (i 1).isLt; omega⟩ : Fin 262144)) :=
  shapeCast_apply z h _ _ (by
    rw [Shape.rowMajor_val_four, Shape.rowMajor_val_one]
    have h2 : (i 2).val < 1 := (i 2).isLt
    have h3 : (i 3).val < 1 := (i 3).isLt
    show (i 0).val * 2048 + (i 1).val = (((i 0).val * 2048 + (i 1).val) * 1 + (i 2).val) * 1 + (i 3).val
    omega)

end Cert.Pool

end
-- ==== Proof.KernelValue.lean ====
/-
  What the first program leaves in its result array, read at the extended reals.
  Its host lines move the two spatial axes of the argument x[n, c, h, w] to the front and flatten them, giving
  y[k, n, c] = x[n, c, k / 7, k % 7]. The region runs over 8 points; point t stages rows 16·t … 16·t + 15 of y's middle
  axis (all 49 positions, all 2048 channels), adds the 49 positions and multiplies by the scalar, and writes the
  [16, 2048] result to rows 16·t … 16·t + 15 of a [128, 2048] matrix. The 8 row blocks tile the matrix, so the matrix
  ends holding the pooled value at every (n, c). The line after the region only adds two unit axes.
-/
import proofs.«117832_g2000708413936706_pallasbulk_804_3_alg».proof.Proof.Gen.KernelIdeal.Frame
import proofs.«117832_g2000708413936706_pallasbulk_804_3_alg».proof.Proof.PoolSpec
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Pooling

open Cert.KernelIdeal Cert.KernelIdeal.Gen Cert.Pool

variable (m : (ℓ : Loc nD τ sig) → Buf (Elt Ideal) ℓ) (ρ : Dev nD → PrngReg)

/-- The argument array on core c, as a function of its four coordinates. -/
abbrev arg (c : Dev nD) : S128x2048x7x7.Idx → EReal := m ((c : Thread nD τ).loc main_arg0)

/-! ## The staged array: y[k, n, c] = x[n, c, k / 7, k % 7] -/

/-- The array the region stages is the argument with its spatial axes moved to the front and flattened. -/
theorem staged_eq (c : Dev nD) :
    (V m c main_v1 : S49x128x2048.Idx → EReal)
      = shapeCast S49x128x2048 (transpose S7x7x128x2048 [2, 3, 0, 1] (arg m c) transposes_S128x2048x7x7_S7x7x128x2048_2_3_0_1)
          shapeCasts_S7x7x128x2048_S49x128x2048 := by
  show StableHlo.after hostOps0 (fun b => m (c, b)) (Proc.devRef .tc main_v1) = _
  after_results
  rfl

/-- So at (k, n, ch) it holds x[n, ch, k / 7, k % 7]. -/
theorem staged_apply (c : Dev nD) (k : Fin 49) (n : Fin 128) (ch : Fin 2048) :
    (V m c main_v1 : S49x128x2048.Idx → EReal) (ix3 k n ch) = arg m c (ix4 n ch (rowOf k) (colOf k)) := by
  rw [staged_eq]
  exact (flattenSpatial_apply _ _ k n ch).trans (spatialFirst_apply _ _ _ _ n ch)

/-! ## The body: 49 positions added, times the scalar -/

/-- The body's stored value at (r, ch) of its block: the block's 49 positions at (r, ch) added, times the scalar. -/
theorem payload_apply (x0 : Vec Ideal S49x16x2048 .f32) (r : Fin 16) (ch : Fin 2048) :
    k0_pay1 (F := Ideal) x0 (ix2 r ch) = (∑ k : Fin 49, x0 (ix3 k r ch)) * scale := by
  unfold k0_pay1
  dsimp only
  rw [mulf_apply, broadcast_apply, shapeCast_self]
  refine congrArg (· * scale) ?_
  refine (Ideal.multiReduction_add_single (φ := .f32) x0 _ reduces_S49x16x2048_S16x2048 _ _ (ix2 r ch)).trans ?_
  refine Finset.sum_congr rfl fun k _ => congrArg x0 ?_
  funext a
  match a with
  | ⟨0, _⟩ => rfl
  | ⟨1, _⟩ => rfl
  | ⟨2, _⟩ => rfl

/-! ## From the 8 row blocks to the matrix -/

theorem zero2 : (![0, 0] : Fin 2 → Nat) = fun _ => 0 := funext fun a => by fin_cases a <;> rfl
theorem zero3 : (![0, 0, 0] : Fin 3 → Nat) = fun _ => 0 := funext fun a => by fin_cases a <;> rfl

/-- Where point t's blocks sit: the input block at block index (0, t, 0), the output block at (t, 0). -/
theorem blocks_at : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0 :=
  (by decide +kernel : ∀ t : Fin grid0.N, _)

/-- Point t's input block at (k, r, ch) is the staged array at (k, 16·t + r, ch). -/
theorem iblk_apply (c : Dev nD) (t : Fin cfg0.N) (k : Fin 49) (r : Fin 16) (ch : Fin 2048) (n : Fin 128)
    (hn : n.val = 16 * t.val + r.val) :
    (iblk m c 0 t : Vec Ideal S49x16x2048 .f32) (ix3 k r ch) = (V m c main_v1 : S49x128x2048.Idx → EReal) (ix3 k n ch) := by
  obtain ⟨e0, e1, e2, -, -⟩ := blocks_at t
  unfold iblk
  rw [View.read_apply]
  show (V m c main_v1 : S49x128x2048.Idx → EReal) _ = (V m c main_v1 : S49x128x2048.Idx → EReal) _
  congr 1
  funext a
  apply Fin.ext
  match a with
  | ⟨0, _⟩ => show win0_0.index t (0 : Fin 3) * 49 + 1 * k.val = k.val; rw [e0]; omega
  | ⟨1, _⟩ => show win0_0.index t (1 : Fin 3) * 16 + 1 * r.val = n.val; rw [e1, hn]; omega
  | ⟨2, _⟩ => show win0_0.index t (2 : Fin 3) * 2048 + 1 * ch.val = ch.val; rw [e2]; omega

/-- The body's value on a block whose entry (k, r, ch) is the staged array's at (k, n, ch) is the pooled value at (n, ch). -/
theorem block_value (c : Dev nD) (x0 : Vec Ideal S49x16x2048 .f32) (r : Fin 16) (ch : Fin 2048) (n : Fin 128)
    (hx : ∀ k : Fin 49, x0 (ix3 k r ch) = (V m c main_v1 : S49x128x2048.Idx → EReal) (ix3 k n ch)) :
    k0_pay1 (F := Ideal) x0 (ix2 r ch) = poolAt scale (arg m c) n ch := by
  rw [payload_apply]
  unfold poolAt
  refine congrArg (· * scale) (Finset.sum_congr rfl fun k _ => ?_)
  rw [hx k, staged_apply]

/-- What point t writes back is block t of the pooled matrix. -/
theorem flushed_eq (c : Dev nD) (t : Fin cfg0.N) :
    (dats m 0 c).flushed 1 t = ((cfg0.win 1).blk t).view.read (Elt Ideal) (pooledMat scale (arg m c)) := by
  show (cfg0.win 1).cut (grid0.coords t) ((dats m 0 c).after 1 t) = _
  rw [after0_1]
  unfold out0_1
  rw [View.canon_unit_zero zero2]
  simp only [View.ld_unit_zero (S := S49x16x2048) zero3]
  obtain ⟨-, -, -, e3, e4⟩ := blocks_at t
  funext j
  show k0_pay1 (F := Ideal) (iblk m c 0 t) (j : S16x2048.Idx) = pooledMat scale (arg m c) (((cfg0.win 1).blk t).view.emb j)
  have ht : t.val < 8 := by have h := t.isLt; have hN : cfg0.N = 8 := N_0; omega
  have h0 : ((j : S16x2048.Idx) 0).val < 16 := ((j : S16x2048.Idx) 0).isLt
  refine ((congrArg (k0_pay1 (F := Ideal) (iblk m c 0 t)) (eq_ix2 (j : S16x2048.Idx))).trans
    (block_value m c (iblk m c 0 t) ((j : S16x2048.Idx) 0) ((j : S16x2048.Idx) 1) ⟨16 * t.val + ((j : S16x2048.Idx) 0).val, by omega⟩
      (fun k => iblk_apply m c t k ((j : S16x2048.Idx) 0) ((j : S16x2048.Idx) 1) _ rfl))).trans ?_
  unfold pooledMat
  congr 1 <;> apply Fin.ext
  · show 16 * t.val + ((j : S16x2048.Idx) 0).val = win0_1.index t (0 : Fin 2) * 16 + 1 * ((j : S16x2048.Idx) 0).val
    rw [e3]; omega
  · show ((j : S16x2048.Idx) 1).val = win0_1.index t (1 : Fin 2) * 2048 + 1 * ((j : S16x2048.Idx) 1).val
    rw [e4]; omega

/-- An index of the matrix is in point t's block iff each coordinate is in the block's range on its axis. -/
theorem mem_blk (t : Fin cfg0.N) (i : S128x2048.Idx) :
    i ∈ ((cfg0.win 1).blk t).view.set ↔ ∀ a : Fin 2, win0_1.index t a * S16x2048.size a ≤ (i a).val ∧ (i a).val < win0_1.index t a * S16x2048.size a + S16x2048.size a := by
  show i ∈ ((View.whole main_v2).slice (win0_1.rect t)).set ↔ _
  rw [View.set_slice_whole, Rect.mem_set_unit]
  exact Iff.rfl

/-- Every entry of the matrix is in some point's block: row n is in block n / 16. -/
theorem covered (i : S128x2048.Idx) : ∃ t : Fin cfg0.N, (cfg0.win 1).flush t = true ∧ i ∈ ((cfg0.win 1).blk t).view.set := by
  have hi0 : (i 0).val < 128 := (i 0).isLt
  have hi1 : (i 1).val < 2048 := (i 1).isLt
  have hN : cfg0.N = 8 := N_0
  let t : Fin cfg0.N := ⟨(i 0).val / 16, by omega⟩
  obtain ⟨-, -, -, e3, e4⟩ := blocks_at t
  refine ⟨t, flush0_1 t, ?_⟩
  rw [mem_blk]
  intro a
  match a with
  | ⟨0, _⟩ =>
    show win0_1.index t (0 : Fin 2) * 16 ≤ (i 0).val ∧ (i 0).val < win0_1.index t (0 : Fin 2) * 16 + 16
    rw [e3]; show (i 0).val / 16 * 16 ≤ (i 0).val ∧ (i 0).val < (i 0).val / 16 * 16 + 16; omega
  | ⟨1, _⟩ =>
    show win0_1.index t (1 : Fin 2) * 2048 ≤ (i 1).val ∧ (i 1).val < win0_1.index t (1 : Fin 2) * 2048 + 2048
    rw [e4]; omega

/-- So the matrix ends holding the pooled value at every (n, c). -/
theorem matrix_final (c : Dev nD) : (dats m 0 c).arrAt 1 cfg0.N = pooledMat scale (arg m c) :=
  (dats m 0 c).arrAt_eq_of_cover 1 (pooledMat scale (arg m c)) (fun t _ => flushed_eq m c t) covered

/-! ## The line after the region, and the run -/

/-- The result array: the matrix with two unit axes added, that is, the pooled array. -/
theorem result_eq (c : Dev nD) :
    (Pipeline.afterTail₀ cfgs (dats m) 0 (V0 m) [hostOps1] c main_v3 : S128x2048x1x1.Idx → EReal) = pooled scale (arg m c) := by
  unfold Pipeline.afterTail₀
  show StableHlo.after hostOps1 _ (Proc.devRef .tc main_v3) = _
  after_results
  funext i
  show shapeCast S128x2048x1x1 (Pipeline.withArrays spec0 c (V0 m c) (fun w => (dats m 0 c).arrAt w cfg0.N) (Proc.devRef .tc main_v2) : S128x2048.Idx → EReal)
    shapeCasts_S128x2048_S128x2048x1x1 i = _
  rw [show (Pipeline.withArrays spec0 c (V0 m c) (fun w => (dats m 0 c).arrAt w cfg0.N) (Proc.devRef .tc main_v2) : S128x2048.Idx → EReal)
      = pooledMat scale (arg m c) from
    (Pipeline.withArrays_arr spec0 launch0.win.arr_inj c _ _ 1).trans (matrix_final m c)]
  exact addUnits_apply _ _ i

/-- The run, read: the result array ends at the pooled array of the argument, the argument unchanged. -/
theorem run : θ_run defs (onTc (τ := τ) (main (F := Ideal))) ⟨m, fun _ => 0, ρ⟩ fun r => ∀ c : Dev nD,
      r.2.mem ((c : Thread nD τ).loc main_v3) = pooled scale (arg m c)
      ∧ r.2.mem ((c : Thread nD τ).loc main_arg0) = m ((c : Thread nD τ).loc main_arg0) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c)⟩)
    (run_main m ρ)

end Cert.KernelIdeal.Pooling

end
-- ==== Proof.ReferenceValue.lean ====
/-
  What the second program leaves in its result array, read at the extended reals.
  Its first host line flattens the argument x[n, c, h, w] into rows of 49: z[r, k] = x[r / 2048, r % 2048, k / 7, k % 7],
  so row r = 2048·n + c is the 7×7 window at (n, c). The region runs over 16 points; point t stages rows
  16384·t … 16384·t + 16383, adds each row's 49 entries, multiplies by the scalar, and writes the column of results to the
  same rows of a [262144, 1] column. The 16 blocks tile the column, so row r of the column ends holding the pooled value at
  (r / 2048, r % 2048). The two lines after the region drop the unit axis and fold the rows back to [128, 2048, 1, 1], where
  entry (n, c, 0, 0) is row 2048·n + c.
-/
import proofs.«117832_g2000708413936706_pallasbulk_804_3_alg».proof.Proof.Gen.ReferenceIdeal.Frame
import proofs.«117832_g2000708413936706_pallasbulk_804_3_alg».proof.Proof.PoolSpec
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.ReferenceIdeal.Pooling

open Cert.ReferenceIdeal Cert.ReferenceIdeal.Gen Cert.Pool

variable (m : (ℓ : Loc nD τ sig) → Buf (Elt Ideal) ℓ) (ρ : Dev nD → PrngReg)

/-- The argument array on core c, as a function of its four coordinates. -/
abbrev arg (c : Dev nD) : S128x2048x7x7.Idx → EReal := m ((c : Thread nD τ).loc main_arg0)

/-- Row r of the flattened array is the window at (r / 2048, r % 2048). -/
abbrev batchOf (r : Fin 262144) : Fin 128 := ⟨r.val / 2048, by have := r.isLt; omega⟩
abbrev chanOf (r : Fin 262144) : Fin 2048 := ⟨r.val % 2048, Nat.mod_lt _ (by norm_num)⟩

/-! ## The staged array: z[r, k] = x[r / 2048, r % 2048, k / 7, k % 7] -/

/-- The array the region stages is the argument flattened into rows of 49. -/
theorem staged_eq (c : Dev nD) :
    (V m c main_v0 : S262144x49.Idx → EReal) = shapeCast S262144x49 (arg m c) shapeCasts_S128x2048x7x7_S262144x49 := by
  show StableHlo.after hostOps0 (fun b => m (c, b)) (Proc.devRef .tc main_v0) = _
  after_results
  rfl

/-- So at (r, k) it holds x[r / 2048, r % 2048, k / 7, k % 7]. -/
theorem staged_apply (c : Dev nD) (r : Fin 262144) (k : Fin 49) :
    (V m c main_v0 : S262144x49.Idx → EReal) (ix2 r k) = arg m c (ix4 (batchOf r) (chanOf r) (rowOf k) (colOf k)) := by
  rw [staged_eq]
  exact flattenRows_apply _ _ r k

/-! ## The body: each row's 49 entries added, times the scalar -/

/-- The body's stored value at row p of its block: the row's 49 entries added, times the scalar. -/
theorem payload_apply (x0 : Vec Ideal S16384x49 .f32) (j : S16384x1.Idx) :
    k0_pay1 (F := Ideal) x0 j = (∑ k : Fin 49, x0 (ix2 (j 0) k)) * scale := by
  unfold k0_pay1
  dsimp only
  rw [mulf_apply, broadcast_apply, shapeCast_self]
  refine congrArg (· * scale) ?_
  refine (column_apply _ _ j).trans ?_
  refine (Ideal.multiReduction_add_single (φ := .f32) x0 _ reduces_S16384x49_S16384 _ _ (ix1 (j 0))).trans ?_
  refine Finset.sum_congr rfl fun k _ => congrArg x0 ?_
  funext a
  match a with
  | ⟨0, _⟩ => rfl
  | ⟨1, _⟩ => rfl

/-! ## From the 16 row blocks to the column -/

theorem zero2 : (![0, 0] : Fin 2 → Nat) = fun _ => 0 := funext fun a => by fin_cases a <;> rfl

/-- Where point t's blocks sit: the input block and the output block both at block index (t, 0). -/
theorem blocks_at : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Point t's input block at (p, k) is the staged array at (16384·t + p, k). -/
theorem iblk_apply (c : Dev nD) (t : Fin cfg0.N) (p : Fin 16384) (k : Fin 49) (r : Fin 262144)
    (hr : r.val = 16384 * t.val + p.val) :
    (iblk m c 0 t : Vec Ideal S16384x49 .f32) (ix2 p k) = (V m c main_v0 : S262144x49.Idx → EReal) (ix2 r k) := by
  obtain ⟨e0, e1, -, -⟩ := blocks_at t
  unfold iblk
  rw [View.read_apply]
  show (V m c main_v0 : S262144x49.Idx → EReal) _ = (V m c main_v0 : S262144x49.Idx → EReal) _
  congr 1
  funext a
  apply Fin.ext
  match a with
  | ⟨0, _⟩ => show win0_0.index t (0 : Fin 2) * 16384 + 1 * p.val = r.val; rw [e0, hr]; omega
  | ⟨1, _⟩ => show win0_0.index t (1 : Fin 2) * 49 + 1 * k.val = k.val; rw [e1]; omega

/-- The body's value on a block whose row (j 0) is row r of the staged array is the pooled value at (r / 2048, r % 2048). -/
theorem block_value (c : Dev nD) (x0 : Vec Ideal S16384x49 .f32) (j : S16384x1.Idx) (r : Fin 262144)
    (hx : ∀ k : Fin 49, x0 (ix2 (j 0) k) = (V m c main_v0 : S262144x49.Idx → EReal) (ix2 r k)) :
    k0_pay1 (F := Ideal) x0 j = poolAt scale (arg m c) (batchOf r) (chanOf r) := by
  rw [payload_apply]
  unfold poolAt
  refine congrArg (· * scale) (Finset.sum_congr rfl fun k _ => ?_)
  rw [hx k, staged_apply]

/-- What point t writes back is block t of the pooled column. -/
theorem flushed_eq (c : Dev nD) (t : Fin cfg0.N) :
    (dats m 0 c).flushed 1 t = ((cfg0.win 1).blk t).view.read (Elt Ideal) (pooledCol scale (arg m c)) := by
  show (cfg0.win 1).cut (grid0.coords t) ((dats m 0 c).after 1 t) = _
  rw [after0_1]
  unfold out0_1
  rw [View.canon_unit_zero zero2]
  simp only [View.ld_unit_zero (S := S16384x49) zero2]
  obtain ⟨-, -, e2, -⟩ := blocks_at t
  funext j
  show k0_pay1 (F := Ideal) (iblk m c 0 t) (j : S16384x1.Idx) = pooledCol scale (arg m c) (((cfg0.win 1).blk t).view.emb j)
  have ht : t.val < 16 := by have h := t.isLt; have hN : cfg0.N = 16 := N_0; omega
  have h0 : ((j : S16384x1.Idx) 0).val < 16384 := ((j : S16384x1.Idx) 0).isLt
  have he : ((((cfg0.win 1).blk t).view.emb j : S262144x1.Idx) 0).val = 16384 * t.val + ((j : S16384x1.Idx) 0).val := by
    show win0_1.index t (0 : Fin 2) * 16384 + 1 * ((j : S16384x1.Idx) 0).val = _
    rw [e2]; omega
  refine (block_value m c (iblk m c 0 t) (j : S16384x1.Idx) ⟨16384 * t.val + ((j : S16384x1.Idx) 0).val, by omega⟩
      (fun k => iblk_apply m c t ((j : S16384x1.Idx) 0) k _ rfl)).trans ?_
  unfold pooledCol
  congr 1 <;> apply Fin.ext
  · show (16384 * t.val + ((j : S16384x1.Idx) 0).val) / 2048 = ((((cfg0.win 1).blk t).view.emb j : S262144x1.Idx) 0).val / 2048
    rw [he]
  · show (16384 * t.val + ((j : S16384x1.Idx) 0).val) % 2048 = ((((cfg0.win 1).blk t).view.emb j : S262144x1.Idx) 0).val % 2048
    rw [he]

/-- An index of the column is in point t's block iff each coordinate is in the block's range on its axis. -/
theorem mem_blk (t : Fin cfg0.N) (i : S262144x1.Idx) :
    i ∈ ((cfg0.win 1).blk t).view.set ↔ ∀ a : Fin 2, win0_1.index t a * S16384x1.size a ≤ (i a).val ∧ (i a).val < win0_1.index t a * S16384x1.size a + S16384x1.size a := by
  show i ∈ ((View.whole main_v1).slice (win0_1.rect t)).set ↔ _
  rw [View.set_slice_whole, Rect.mem_set_unit]
  exact Iff.rfl

/-- Every entry of the column is in some point's block: row r is in block r / 16384. -/
theorem covered (i : S262144x1.Idx) : ∃ t : Fin cfg0.N, (cfg0.win 1).flush t = true ∧ i ∈ ((cfg0.win 1).blk t).view.set := by
  have hi0 : (i 0).val < 262144 := (i 0).isLt
  have hi1 : (i 1).val < 1 := (i 1).isLt
  have hN : cfg0.N = 16 := N_0
  let t : Fin cfg0.N := ⟨(i 0).val / 16384, by omega⟩
  obtain ⟨-, -, e2, e3⟩ := blocks_at t
  refine ⟨t, flush0_1 t, ?_⟩
  rw [mem_blk]
  intro a
  match a with
  | ⟨0, _⟩ =>
    show win0_1.index t (0 : Fin 2) * 16384 ≤ (i 0).val ∧ (i 0).val < win0_1.index t (0 : Fin 2) * 16384 + 16384
    rw [e2]; show (i 0).val / 16384 * 16384 ≤ (i 0).val ∧ (i 0).val < (i 0).val / 16384 * 16384 + 16384; omega
  | ⟨1, _⟩ =>
    show win0_1.index t (1 : Fin 2) * 1 ≤ (i 1).val ∧ (i 1).val < win0_1.index t (1 : Fin 2) * 1 + 1
    rw [e3]; omega

/-- So the column ends holding, at row r, the pooled value at (r / 2048, r % 2048). -/
theorem column_final (c : Dev nD) : (dats m 0 c).arrAt 1 cfg0.N = pooledCol scale (arg m c) :=
  (dats m 0 c).arrAt_eq_of_cover 1 (pooledCol scale (arg m c)) (fun t _ => flushed_eq m c t) covered

/-! ## The lines after the region, and the run -/

/-- The result array: the column's rows folded back to [128, 2048, 1, 1], that is, the pooled array. -/
theorem result_eq (c : Dev nD) :
    (Pipeline.afterTail₀ cfgs (dats m) 0 (V0 m) [hostOps1] c main_v3 : S128x2048x1x1.Idx → EReal) = pooled scale (arg m c) := by
  unfold Pipeline.afterTail₀
  show StableHlo.after hostOps1 _ (Proc.devRef .tc main_v3) = _
  after_results
  funext i
  show shapeCast S128x2048x1x1 (shapeCast S262144
      (Pipeline.withArrays spec0 c (V0 m c) (fun w => (dats m 0 c).arrAt w cfg0.N) (Proc.devRef .tc main_v1) : S262144x1.Idx → EReal)
      shapeCasts_S262144x1_S262144) shapeCasts_S262144_S128x2048x1x1 i = _
  rw [show (Pipeline.withArrays spec0 c (V0 m c) (fun w => (dats m 0 c).arrAt w cfg0.N) (Proc.devRef .tc main_v1) : S262144x1.Idx → EReal)
      = pooledCol scale (arg m c) from
    (Pipeline.withArrays_arr spec0 launch0.win.arr_inj c _ _ 1).trans (column_final m c)]
  refine (foldRows_apply _ _ i).trans ((dropColumn_apply _ _ _).trans ?_)
  have h0 : (i 0).val < 128 := (i 0).isLt
  have h1 : (i 1).val < 2048 := (i 1).isLt
  unfold pooledCol pooled
  congr 1 <;> apply Fin.ext
  · show ((i 0).val * 2048 + (i 1).val) / 2048 = (i 0).val
    omega
  · show ((i 0).val * 2048 + (i 1).val) % 2048 = (i 1).val
    omega

/-- The run, read: the result array ends at the pooled array of the argument, the argument unchanged. -/
theorem run : θ_run defs (onTc (τ := τ) (main (F := Ideal))) ⟨m, fun _ => 0, ρ⟩ fun r => ∀ c : Dev nD,
      r.2.mem ((c : Thread nD τ).loc main_v3) = pooled scale (arg m c)
      ∧ r.2.mem ((c : Thread nD τ).loc main_arg0) = m ((c : Thread nD τ).loc main_arg0) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c)⟩)
    (run_main m ρ)

end Cert.ReferenceIdeal.Pooling

end
-- ==== Proof.lean ====
/-
  Global average pooling of x[n, c, h, w] over its 7×7 window, computed two ways, and the two results compared as
  extended reals: out[n, c, 0, 0] = (Σ_{k < 49} x[n, c, k / 7, k % 7]) · s, with s one fixed single-precision word.

  The first program moves the window's axes to the front, flattens them to one axis of 49, and for 8 blocks of 16 batch
  rows adds along that leading axis; the second flattens everything but the window into 262144 rows of 49 and for 16
  blocks of 16384 rows adds along each row. At the extended reals the sum over one axis is a finite sum over that axis's
  coordinates, whatever the axis and the blocking, so at every (n, c) both programs add the same 49 entries and multiply
  by the same word: the two result arrays are one function of the argument (Proof/PoolSpec.lean), entry by entry. No law
  beyond re-indexing a finite sum is used, so the inputs' finiteness is never needed. Each program's result is read off
  its run in Proof/KernelValue.lean and Proof/ReferenceValue.lean. The idealization rewrote no operation, so the first
  program's idealization is its own text.
-/
import proofs.«117832_g2000708413936706_pallasbulk_804_3_alg».proof.Defs
import proofs.«117832_g2000708413936706_pallasbulk_804_3_alg».proof.Proof.Gen.Kernel
import proofs.«117832_g2000708413936706_pallasbulk_804_3_alg».proof.Proof.Gen.Kernel.Skeleton
import proofs.«117832_g2000708413936706_pallasbulk_804_3_alg».proof.Proof.Gen.Kernel.Launch
import proofs.«117832_g2000708413936706_pallasbulk_804_3_alg».proof.Proof.Gen.Kernel.Points
import proofs.«117832_g2000708413936706_pallasbulk_804_3_alg».proof.Proof.Gen.Kernel.Frame
import proofs.«117832_g2000708413936706_pallasbulk_804_3_alg».proof.Proof.Gen.KernelIdeal
import proofs.«117832_g2000708413936706_pallasbulk_804_3_alg».proof.Proof.Gen.KernelIdeal.Skeleton
import proofs.«117832_g2000708413936706_pallasbulk_804_3_alg».proof.Proof.Gen.KernelIdeal.Launch
import proofs.«117832_g2000708413936706_pallasbulk_804_3_alg».proof.Proof.Gen.KernelIdeal.Points
import proofs.«117832_g2000708413936706_pallasbulk_804_3_alg».proof.Proof.Gen.KernelIdeal.Frame
import proofs.«117832_g2000708413936706_pallasbulk_804_3_alg».proof.Proof.Gen.ReferenceIdeal
import proofs.«117832_g2000708413936706_pallasbulk_804_3_alg».proof.Proof.Gen.ReferenceIdeal.Skeleton
import proofs.«117832_g2000708413936706_pallasbulk_804_3_alg».proof.Proof.Gen.ReferenceIdeal.Launch
import proofs.«117832_g2000708413936706_pallasbulk_804_3_alg».proof.Proof.Gen.ReferenceIdeal.Points
import proofs.«117832_g2000708413936706_pallasbulk_804_3_alg».proof.Proof.Gen.ReferenceIdeal.Frame
import proofs.«117832_g2000708413936706_pallasbulk_804_3_alg».proof.Proof.Gen.Pre_finite_inputs
import proofs.«117832_g2000708413936706_pallasbulk_804_3_alg».proof.Proof.PoolSpec
import proofs.«117832_g2000708413936706_pallasbulk_804_3_alg».proof.Proof.KernelValue
import proofs.«117832_g2000708413936706_pallasbulk_804_3_alg».proof.Proof.ReferenceValue
import Idealize.ShloMosaic.Adequacy
import Idealize.ShloMosaic.Init

noncomputable section

namespace Cert.Proof

open Idealize.ShloMosaic Idealize.SL.Sem

/-- Each program runs to the end without a fault and leaves its argument as it found it. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- From arguments that agree, both programs end with the pooled array of that argument: the same 49 entries added at
    every (n, c), times the same scalar. -/
theorem algebraic : Cert.algebraic_KernelIdeal_ReferenceIdeal := by
  intro m ρ m' ρ' _ hagree
  refine ⟨fun c => Cert.Pool.pooled Cert.Pool.scale (Cert.KernelIdeal.Pooling.arg m c), Cert.KernelIdeal.Pooling.run m ρ, ?_⟩
  refine (θ_run Cert.ReferenceIdeal.defs _ _).mono (fun _ h c => ⟨(h c).1.trans ?_, (h c).2⟩)
    (Cert.ReferenceIdeal.Pooling.run m' ρ')
  have e : Cert.ReferenceIdeal.Pooling.arg m' c = Cert.KernelIdeal.Pooling.arg m c := hagree c
  show Cert.Pool.pooled Cert.Pool.scale (Cert.ReferenceIdeal.Pooling.arg m' c) = Cert.Pool.pooled Cert.Pool.scale (Cert.KernelIdeal.Pooling.arg m c)
  rw [e]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
